-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S16x64x512 : S_.BroadcastsInDim S16x64x512 (![] : Fin 0 → Fin S16x64x512.rank)
  reducesTo_S16x64x512_S_d0_1_2 : S16x64x512.ReducesTo [0, 1, 2] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  main_v18

def fn {F : FTy → Type} [FloatOps F] (main_arg0 : FVec F S16x512x512 .f32) (main_arg1 : FVec F S16x64x512 .f32) (main_arg2 : FVec F S500x512 .f32) (main_arg3 : FVec F S500 .f32) (main_arg4 : IVec S306874 32) (main_arg5 : IVec S306874 32) (main_arg6 : IVec S306874 32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S16x64x512 .f32 := Host.absf main_arg1
  let main_cst_0 : FVec F S_ .f32 := constant S_ .f32 0x7F800000#32
  let main_v5 : FVec F S16x64x512 .f32 := broadcastInDim S16x64x512 ![] bcast_S_S16x64x512 main_cst_0
  let main_v6 : IVec S16x64x512 1 := cmpf .olt main_v4 main_v5
  let main_c_1 : IVec S_ 1 := constantI S_ 1 1#1
  let main_v7 : IVec S_ 1 := (fun x v => Host.reduce IntOp.andi x v reducesTo_S16x64x512_S_d0_1_2 h_S_) main_v6 main_c_1
  let main_v8 : IVec S_ 1 := andi main_v3 main_v7
  let main_v9 : FVec F S500x512 .f32 := Host.absf main_arg2
  let main_cst_2 : FVec F S_ .f32 := constant S_ .f32 0x7F800000#32
  let main_v10 : FVec F S500x512 .f32 := broadcastInDim S500x512 ![] bcast_S_S500x512 main_cst_2
  let main_v11 : IVec S500x512 1 := cmpf .olt main_v9 main_v10
  let main_c_3 : IVec S_ 1 := constantI S_ 1 1#1
  let main_v12 : IVec S_ 1 := (fun x v => Host.reduce IntOp.andi x v reducesTo_S500x512_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_v13 main_v16
-- ==== Kernel.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩
abbrev S306874x1 : Shape := ⟨2, ![306874, 1]⟩
abbrev S306874x2 : Shape := ⟨2, ![306874, 2]⟩
abbrev S306874x512 : Shape := ⟨2, ![306874, 512]⟩
abbrev S512x500 : Shape := ⟨2, ![512, 500]⟩
abbrev S1x500 : Shape := ⟨2, ![1, 500]⟩
abbrev S306874x500 : Shape := ⟨2, ![306874, 500]⟩
abbrev S2048x512 : Shape := ⟨2, ![2048, 512]⟩
abbrev S2048x500 : Shape := ⟨2, ![2048, 500]⟩

abbrev nBuf : Space → Nat
  | .hbm => 51
  | .vmem => 7
  | .smem => 0
  | _ => 0

abbrev bufTy : (tb : Table) → Fin (tcTables nBuf tb) → BufTy
  | .hbm, ⟨0, _⟩ => ⟨S16x512x512, .f32⟩
  | .hbm, ⟨1, _⟩ => ⟨S16x64x512, .f32⟩
  | .hbm, ⟨2, _⟩ => ⟨S500x512, .f32⟩
  | .hbm, ⟨3, _⟩ => ⟨S500, .f32⟩
  | .hbm, ⟨4, _⟩ => ⟨S306874, .i32⟩
  | .hbm, ⟨5, _⟩ => ⟨S306874, .i32⟩
  | .hbm, ⟨6, _⟩ => ⟨S306874, .i32⟩
  | .hbm, ⟨7, _⟩ => ⟨S_, .i32⟩
  | .hbm, ⟨8, _⟩ => ⟨S306874, .i32⟩
  | .hbm, ⟨9, _⟩ => ⟨S306874, .i1⟩
  | .hbm, ⟨10, _⟩ => ⟨S_, .i32⟩
  | .hbm, ⟨11, _⟩ => ⟨S306874, .i32⟩
  | .hbm, ⟨12, _⟩ => ⟨S306874, .i32⟩
  | .hbm, ⟨13, _⟩ => ⟨S306874, .i32⟩
  | .hbm, ⟨14, _⟩ => ⟨S_, .i32⟩
  | .hbm, ⟨15, _⟩ => ⟨S306874, .i32⟩
  | .hbm, ⟨16, _⟩ => ⟨S306874, .i1⟩
  | .hbm, ⟨17, _⟩ => ⟨S_, .i32⟩
  | .hbm, ⟨18, _⟩ => ⟨S306874, .i32⟩
  | .hbm, ⟨19, _⟩ => ⟨S306874, .i32⟩
  | .hbm, ⟨20, _⟩ => ⟨S306874, .i32⟩
  | .hbm, ⟨21, _⟩ => ⟨S306874x1, .i32⟩
  | .hbm, ⟨22, _⟩ => ⟨S306874x1, .i32⟩
  | .hbm, ⟨23, _⟩ => ⟨S306874x2, .i32⟩
  | .hbm, ⟨24, _⟩ => ⟨S306874x512, .f32⟩
  | .hbm, ⟨25, _⟩ => ⟨S_, .i32⟩
  | .hbm, ⟨26, _⟩ => ⟨S306874, .i32⟩
  | .hbm, ⟨27, _⟩ => ⟨S306874, .i1⟩
  | .hbm, ⟨28, _⟩ => ⟨S_, .i32⟩
  | .hbm, ⟨29, _⟩ => ⟨S306874, .i32⟩
  | .hbm, ⟨30, _⟩ => ⟨S306874, .i32⟩
  | .hbm, ⟨31, _⟩ => ⟨S306874, .i32⟩
  | .hbm, ⟨32, _⟩ => ⟨S_, .i32⟩
  | .hbm, ⟨33, _⟩ => ⟨S306874, .i32⟩
  | .hbm, ⟨34, _⟩ => ⟨S306874, .i1⟩
  | .hbm, ⟨35, _⟩ => ⟨S_, .i32⟩
  | .hbm, ⟨36, _⟩ => ⟨S306874, .i32⟩
  | .hbm, ⟨37, _⟩ => ⟨S306874, .i32⟩
  | .hbm, ⟨38, _⟩ => ⟨S306874, .i32⟩
  | .hbm, ⟨39, _⟩ => ⟨S306874x1, .i32⟩
  | .hbm, ⟨40, _⟩ => ⟨S306874x1, .i32⟩
  | .hbm, ⟨41, _⟩ => ⟨S306874x2, .i32⟩
  | .hbm, ⟨42, _⟩ => ⟨S306874x512, .f32⟩
  | .hbm, ⟨43, _⟩ => ⟨S306874x512, .f32⟩
  | .hbm, ⟨44, _⟩ => ⟨S512x500, .f32⟩
  | .hbm, ⟨45, _⟩ => ⟨S512x500, .bf16⟩
  | .hbm, ⟨46, _⟩ => ⟨S512x500, .f32⟩
  | .hbm, ⟨47, _⟩ => ⟨S512x500, .f32⟩
  | .hbm, ⟨48, _⟩ => ⟨S512x500, .bf16⟩
  | .hbm, ⟨49, _⟩ => ⟨S1x500, .f32⟩
  | .hbm, ⟨50, _⟩ => ⟨S306874x500, .f32⟩
  | .local _ .vmem, ⟨0, _⟩ => ⟨S2048x512, .f32⟩
  | .local _ .vmem, ⟨1, _⟩ => ⟨S2048x512, .f32⟩
  | .local _ .vmem, ⟨2, _⟩ => ⟨S512x500, .bf16⟩
  | .local _ .vmem, ⟨3, _⟩ => ⟨S512x500, .bf16⟩
  | .local _ .vmem, ⟨4, _⟩ => ⟨S1x500, .f32⟩
  | .local _ .vmem, ⟨5, _⟩ => ⟨S2048x500, .f32⟩
  | .local _ .vmem, ⟨6, _⟩ => ⟨S2048x500, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x500 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S306874 : S_.BroadcastsInDim S306874 (![] : Fin 0 → Fin S306874.rank)
  bcast_S306874_S306874x1_0 : S306874.BroadcastsInDim S306874x1 (![0] : Fin 1 → Fin S306874x1.rank)
  concatenates_S306874x1_S306874x1_S306874x2_d1 : Shape.Concatenates [S306874x1, S306874x1] S306874x2 1
  transposes_S500x512_S512x500_1_0 : S500x512.Transposes [1, 0] S512x500
  bitsLt_bf16_f32 : FTy.bits .bf16 < FTy.bits .f32
  shapeCasts_S500_S1x500 : S500.ShapeCasts S1x500
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S2048x500 : S1x500.Broadcasts S2048x500
  inb_S2048x500_S2048x500_0_0 : ∀ a, (![0, 0] : Fin 2 → Nat) a + S2048x500.size a ≤ S2048x500.size a
  h_S2048x500 : 0 < S2048x500.numel
  gather_S16x512x512_S306874x2_S306874x512_1_01_n_n_01_1_11512_wf : GatherDims.WF S16x512x512 S306874x2 S306874x512 [1] [0, 1] [] [0, 1] [] 1 ![1, 1, 512]
  gather_S16x64x512_S306874x2_S306874x512_1_01_n_n_01_1_11512_wf : GatherDims.WF S16x64x512 S306874x2 S306874x512 [1] [0, 1] [] [0, 1] [] 1 ![1, 1, 512]
  dot_S2048x512_S512x500_S2048x500_1_0_0_1_n_n_wf : DotDims.WF S2048x512 S512x500 S2048x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S306874x512.size a
  hwx0_0 : ∀ i : grid0.Coords, EltTy.bits .f32 = 32 ∨ (Rect.unit (s := S306874x512) (fun a => cc0_transform_0 i a * S2048x512.size a) (fun a => (Pipeline.Clip.of (cc0_transform_0 i a) (S2048x512.size a) (S306874x512.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S306874x512.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .bf16 = 32 ∨ (Rect.block (s := S512x500) S512x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S512x500.size a
  hwx0_2 : ∀ i : grid0.Coords, EltTy.bits .bf16 = 32 ∨ (Rect.block (s := S512x500) S512x500.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x500.size a ≤ S1x500.size a
  hwx0_3 : ∀ i : grid0.Coords, EltTy.bits .f32 = 32 ∨ (Rect.block (s := S1x500) S1x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x500.size a < S306874x500.size a
  hwx0_4 : ∀ i : grid0.Coords, EltTy.bits .f32 = 32 ∨ (Rect.unit (s := S306874x500) (fun a => cc0_transform_4 i a * S2048x500.size a) (fun a => (Pipeline.Clip.of (cc0_transform_4 i a) (S2048x500.size a) (S306874x500.size a)).extent (S2048x500.size a)) fun a => Pipeline.Clip.inb (Pipeline.Clip.ok_of (hstart0_4 i a))).WholeWords (EltTy.packing .f32)
  hwxs0_4 : ∀ i : grid0.Coords, EltTy.bits .f32 = 32 ∨ (Rect.unit (s := S2048x500) (fun _ => 0) (fun a => (Pipeline.Clip.of (cc0_transform_4 i a) (S2048x500.size a) (S306874x500.size a)).extent (S2048x500.size a)) fun a => (Nat.zero_add _).trans_le (Pipeline.Clip.extent_le (Pipeline.Clip.ok_of (hstart0_4 i a)))).WholeWords (EltTy.packing .f32)

variable [Facts₀]

def gather_S16x512x512_S306874x2_S306874x512_1_01_n_n_01_1_11512 : GatherDims S16x512x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x512x512_S306874x2_S306874x512_1_01_n_n_01_1_11512_wf
def gather_S16x64x512_S306874x2_S306874x512_1_01_n_n_01_1_11512 : GatherDims S16x64x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x64x512_S306874x2_S306874x512_1_01_n_n_01_1_11512_wf
def dot_S2048x512_S512x500_S2048x500_1_0_0_1_n_n : DotDims S2048x512 S512x500 S2048x500 where
  lhsContracting := [1]
  rhsContracting := [0]
  lhsNonContracting := [0]
  rhsNonContracting := [1]
  lhsBatch := []
  rhsBatch := []
  wf := dot_S2048x512_S512x500_S2048x500_1_0_0_1_n_n_wf

abbrev win0_0 : Pipeline.Window sig grid0 :=
  Pipeline.Window.ofSpecClip (Memref.whole main_v28) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v30) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v35) S2048x500.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩
abbrev S306874x1 : Shape := ⟨2, ![306874, 1]⟩
abbrev S306874x2 : Shape := ⟨2, ![306874, 2]⟩
abbrev S306874x512 : Shape := ⟨2, ![306874, 512]⟩
abbrev S512x500 : Shape := ⟨2, ![512, 500]⟩
abbrev S306874x500 : Shape := ⟨2, ![306874, 500]⟩
abbrev S1x500 : Shape := ⟨2, ![1, 500]⟩

abbrev nBuf : Space → Nat
  | .hbm => 50
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x64x512, .f32⟩
  | .hbm, ⟨2, _⟩ => ⟨S500x512, .f32⟩
  | .hbm, ⟨3, _⟩ => ⟨S500, .f32⟩
  | .hbm, ⟨4, _⟩ => ⟨S306874, .i32⟩
  | .hbm, ⟨5, _⟩ => ⟨S306874, .i32⟩
  | .hbm, ⟨6, _⟩ => ⟨S306874, .i32⟩
  | .hbm, ⟨7, _⟩ => ⟨S_, .i32⟩
  | .hbm, ⟨8, _⟩ => ⟨S306874, .i32⟩
  | .hbm, ⟨9, _⟩ => ⟨S306874, .i1⟩
  | .hbm, ⟨10, _⟩ => ⟨S_, .i32⟩
  | .hbm, ⟨11, _⟩ => ⟨S306874, .i32⟩
  | .hbm, ⟨12, _⟩ => ⟨S306874, .i32⟩
  | .hbm, ⟨13, _⟩ => ⟨S306874, .i32⟩
  | .hbm, ⟨14, _⟩ => ⟨S_, .i32⟩
  | .hbm, ⟨15, _⟩ => ⟨S306874, .i32⟩
  | .hbm, ⟨16, _⟩ => ⟨S306874, .i1⟩
  | .hbm, ⟨17, _⟩ => ⟨S_, .i32⟩
  | .hbm, ⟨18, _⟩ => ⟨S306874, .i32⟩
  | .hbm, ⟨19, _⟩ => ⟨S306874, .i32⟩
  | .hbm, ⟨20, _⟩ => ⟨S306874, .i32⟩
  | .hbm, ⟨21, _⟩ => ⟨S306874x1, .i32⟩
  | .hbm, ⟨22, _⟩ => ⟨S306874x1, .i32⟩
  | .hbm, ⟨23, _⟩ => ⟨S306874x2, .i32⟩
  | .hbm, ⟨24, _⟩ => ⟨S306874x512, .f32⟩
  | .hbm, ⟨25, _⟩ => ⟨S_, .i32⟩
  | .hbm, ⟨26, _⟩ => ⟨S306874, .i32⟩
  | .hbm, ⟨27, _⟩ => ⟨S306874, .i1⟩
  | .hbm, ⟨28, _⟩ => ⟨S_, .i32⟩
  | .hbm, ⟨29, _⟩ => ⟨S306874, .i32⟩
  | .hbm, ⟨30, _⟩ => ⟨S306874, .i32⟩
  | .hbm, ⟨31, _⟩ => ⟨S306874, .i32⟩
  | .hbm, ⟨32, _⟩ => ⟨S_, .i32⟩
  | .hbm, ⟨33, _⟩ => ⟨S306874, .i32⟩
  | .hbm, ⟨34, _⟩ => ⟨S306874, .i1⟩
  | .hbm, ⟨35, _⟩ => ⟨S_, .i32⟩
  | .hbm, ⟨36, _⟩ => ⟨S306874, .i32⟩
  | .hbm, ⟨37, _⟩ => ⟨S306874, .i32⟩
  | .hbm, ⟨38, _⟩ => ⟨S306874, .i32⟩
  | .hbm, ⟨39, _⟩ => ⟨S306874x1, .i32⟩
  | .hbm, ⟨40, _⟩ => ⟨S306874x1, .i32⟩
  | .hbm, ⟨41, _⟩ => ⟨S306874x2, .i32⟩
  | .hbm, ⟨42, _⟩ => ⟨S306874x512, .f32⟩
  | .hbm, ⟨43, _⟩ => ⟨S306874x512, .f32⟩
  | .hbm, ⟨44, _⟩ => ⟨S306874x512, .f32⟩
  | .hbm, ⟨45, _⟩ => ⟨S512x500, .f32⟩
  | .hbm, ⟨46, _⟩ => ⟨S306874x500, .f32⟩
  | .hbm, ⟨47, _⟩ => ⟨S1x500, .f32⟩
  | .hbm, ⟨48, _⟩ => ⟨S306874x500, .f32⟩
  | .hbm, ⟨49, _⟩ => ⟨S306874x500, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S306874 : S_.BroadcastsInDim S306874 (![] : Fin 0 → Fin S306874.rank)
  bcast_S306874_S306874x1_0 : S306874.BroadcastsInDim S306874x1 (![0] : Fin 1 → Fin S306874x1.rank)
  concatenates_S306874x1_S306874x1_S306874x2_d1 : Shape.Concatenates [S306874x1, S306874x1] S306874x2 1
  transposes_S500x512_S512x500_1_0 : S500x512.Transposes [1, 0] S512x500
  bcast_S500_S1x500_1 : S500.BroadcastsInDim S1x500 (![1] : Fin 1 → Fin S1x500.rank)
  bcast_S1x500_S306874x500_0_1 : S1x500.BroadcastsInDim S306874x500 (![0, 1] : Fin 2 → Fin S306874x500.rank)
  gather_S16x512x512_S306874x2_S306874x512_1_01_n_n_01_1_11512_wf : GatherDims.WF S16x512x512 S306874x2 S306874x512 [1] [0, 1] [] [0, 1] [] 1 ![1, 1, 512]
  gather_S16x64x512_S306874x2_S306874x512_1_01_n_n_01_1_11512_wf : GatherDims.WF S16x64x512 S306874x2 S306874x512 [1] [0, 1] [] [0, 1] [] 1 ![1, 1, 512]
  dot_S306874x512_S512x500_S306874x500_1_0_0_1_n_n_wf : DotDims.WF S306874x512 S512x500 S306874x500 [1] [0] [0] [1] [] []

variable [Facts₀]

def gather_S16x512x512_S306874x2_S306874x512_1_01_n_n_01_1_11512 : GatherDims S16x512x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x512x512_S306874x2_S306874x512_1_01_n_n_01_1_11512_wf
def gather_S16x64x512_S306874x2_S306874x512_1_01_n_n_01_1_11512 : GatherDims S16x64x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x64x512_S306874x2_S306874x512_1_01_n_n_01_1_11512_wf
def dot_S306874x512_S512x500_S306874x500_1_0_0_1_n_n : DotDims S306874x512 S512x500 S306874x500 where
  lhsContracting := [1]
  rhsContracting := [0]
  lhsNonContracting := [0]
  rhsNonContracting := [1]
  lhsBatch := []
  rhsBatch := []
  wf := dot_S306874x512_S512x500_S306874x500_1_0_0_1_n_n_wf

class Facts : Prop extends Facts₀ where

variable [Facts]
-- ==== Proof.BitsBody.lean ====
/-
  The kernel body of `Kernel` as a Hoare triple over whole staging buffers: it loads the activations' block,
  both weight blocks and the bias row, computes one pure payload from them, and overwrites the whole output block.
  Whatever the buffers hold — the triple asks nothing of the contents — the body runs without a fault, leaves the
  four input buffers as it found them and the output buffer at that payload of what the inputs held.
-/
import proofs.«129046_j14594298872273_2_alg».proof.Proof.Gen.Kernel.Frame
import proofs.«129046_j14594298872273_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body's accesses name (offset zero, the buffer's own extents). -/
abbrev rX : Rect S2048x512 := Rect.unit (s := S2048x512) ![0, 0] S2048x512.size inb_S2048x512_S2048x512_0_0
abbrev rW : Rect S512x500 := Rect.unit (s := S512x500) ![0, 0] S512x500.size inb_S512x500_S512x500_0_0
abbrev rB : Rect S1x500 := Rect.unit (s := S1x500) ![0, 0] S1x500.size inb_S1x500_S1x500_0_0
abbrev rO : Rect S2048x500 := Rect.unit (s := S2048x500) ![0, 0] S2048x500.size inb_S2048x500_S2048x500_0_0

theorem zero_off : (![0, 0] : Fin 2 → Nat) = fun _ => 0 := funext fun a => by fin_cases a <;> rfl

/-- What the output buffer holds after the body, from what the four input buffers hold: its one store, of the
    payload of the loads (the first weight buffer is loaded twice). -/
def outBlock (x0 : Vec F S2048x512 .f32) (x1 : Vec F S512x500 .bf16) (x2 : Vec F S512x500 .bf16) (x3 : Vec F S1x500 .f32) :
    Vec F S2048x500 .f32 :=
  View.canon [⟨rO, k0_pay1 (View.ld x0 rX) (View.ld x1 rW) (View.ld x2 rW) (View.ld x1 rW) (View.ld x3 rB)⟩]

/-- The one store covers the output buffer. -/
theorem cover_out (p0 : Vec F S2048x500 .f32) (y : S2048x500.Idx) :
    ∃ pc ∈ ([⟨rO, p0⟩] : List (View.Piece (Elt F) S2048x500 .f32)), y ∈ pc.1.set :=
  ⟨_, List.mem_singleton.mpr rfl, View.mem_set_unit_zero zero_off inb_S2048x500_S2048x500_0_0 y⟩

set_option maxHeartbeats 1000000 in
/-- The body's triple: from the five whole buffers — the inputs at any contents `x0 … x3`, the output at anything — to
    the inputs unchanged and the output at `outBlock x0 x1 x2 x3`. -/
theorem sound_kernel (c : Dev nD) (E : Set ℕ) (i : grid0.Coords)
    (arg1 : Memref sig .tc .vmem S2048x512 .f32) (harg1 : arg1.IsWhole) (arg2 : Memref sig .tc .vmem S512x500 .bf16) (harg2 : arg2.IsWhole)
    (arg3 : Memref sig .tc .vmem S512x500 .bf16) (harg3 : arg3.IsWhole) (arg4 : Memref sig .tc .vmem S1x500 .f32) (harg4 : arg4.IsWhole)
    (arg5 : Memref sig .tc .vmem S2048x500 .f32) (harg5 : arg5.IsWhole)
    (x0 : Vec F S2048x512 .f32) (x1 : Vec F S512x500 .bf16) (x2 : Vec F S512x500 .bf16) (x3 : Vec F S1x500 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E
          (cc0__tanh_matmul_kernel i arg1 harg1 arg2 harg2 arg3 harg3 arg4 harg4 arg5 harg5) K := by
  simp only [cc0__tanh_matmul_kernel_eq_skeleton]; unfold cc0__tanh_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.BitsFrame.lean ====
/-
  The frame of the word-level program: it runs to the end, faults nowhere, and leaves its seven argument arrays as it
  found them.

  The last block of the activations and of the result overhangs its array (306874 rows in blocks of 2048), so the rows of
  the staging buffers past the array's end hold words nothing names, and the body computes on them. For the frame
  nothing of what the body leaves in a staging buffer has to be named: the proof data constrain it by the relation that
  holds of everything, the body's triple holds at any contents of its buffers, and what the run then says of the
  argument arrays — none of them is an array the region stages — is that they hold what the region found, which is what
  the host operations before it, writing none of them, were launched with.
-/
import proofs.«129046_j14594298872273_2_alg».proof.Proof.BitsBody
import proofs.«129046_j14594298872273_2_alg».proof.Proof.Gen.Kernel.Launch
import proofs.«129046_j14594298872273_2_alg».proof.Proof.Gen.Kernel.Points
import proofs.«129046_j14594298872273_2_alg».proof.Proof.Gen.Kernel.Frame
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, relational: the arrays as the region finds them; of what the body leaves in a staging buffer,
    nothing; the class's invariant; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on whatever the five current staging buffers hold. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel c Set.univ (grid0.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (outBlock (Y 0) (Y 1) (Y 2) (Y 3)); isplitr; · ipureintro; trivial
    iexact H4

/-- The relational body obligation, at every point and all contents. -/
theorem body_obligation (c : Dev nD) : (rdats (F := F) m c).BodyObligation (defs₀ (F := F)) Variants.none () Set.univ := fun t Y _ => by
  rw [bigSep_W0, bigSep_W0]
  exact sound_body m c t Y

set_option backward.isDefEq.respectTransparency.types false in
/-- Every weakly fair execution of @main terminates, faulting nowhere, every unscoped buffer the region does not stage
    ending as the region found it. -/
theorem run_main : θ_run defs (onTc (τ := τ) (main (F := F))) (s₀ m ρ) (RDat.FramePost cfg0 (rdats m) (V m)) :=
  RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: no argument array is staged by the region or written by a host operation before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel.Body

end
-- ==== Proof.IdealBody.lean ====
/-
  The kernel body of `KernelIdeal` as a Hoare triple over whole staging buffers: it loads the activations' block,
  both weight blocks and the bias row, computes one pure payload from them, and overwrites the whole output block.
  Whatever the buffers hold — the triple asks nothing of the contents — the body runs without a fault, leaves the
  four input buffers as it found them and the output buffer at that payload of what the inputs held.
-/
import proofs.«129046_j14594298872273_2_alg».proof.Proof.Gen.KernelIdeal.Frame
import proofs.«129046_j14594298872273_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body's accesses name (offset zero, the buffer's own extents). -/
abbrev rX : Rect S2048x512 := Rect.unit (s := S2048x512) ![0, 0] S2048x512.size inb_S2048x512_S2048x512_0_0
abbrev rW : Rect S512x500 := Rect.unit (s := S512x500) ![0, 0] S512x500.size inb_S512x500_S512x500_0_0
abbrev rB : Rect S1x500 := Rect.unit (s := S1x500) ![0, 0] S1x500.size inb_S1x500_S1x500_0_0
abbrev rO : Rect S2048x500 := Rect.unit (s := S2048x500) ![0, 0] S2048x500.size inb_S2048x500_S2048x500_0_0

theorem zero_off : (![0, 0] : Fin 2 → Nat) = fun _ => 0 := funext fun a => by fin_cases a <;> rfl

/-- What the output buffer holds after the body, from what the four input buffers hold: its one store, of the
    payload of the loads (the first weight buffer is loaded twice). -/
def outBlock (x0 : Vec F S2048x512 .f32) (x1 : Vec F S512x500 .bf16) (x2 : Vec F S512x500 .bf16) (x3 : Vec F S1x500 .f32) :
    Vec F S2048x500 .f32 :=
  View.canon [⟨rO, k0_pay1 (View.ld x0 rX) (View.ld x1 rW) (View.ld x2 rW) (View.ld x1 rW) (View.ld x3 rB)⟩]

/-- The one store covers the output buffer. -/
theorem cover_out (p0 : Vec F S2048x500 .f32) (y : S2048x500.Idx) :
    ∃ pc ∈ ([⟨rO, p0⟩] : List (View.Piece (Elt F) S2048x500 .f32)), y ∈ pc.1.set :=
  ⟨_, List.mem_singleton.mpr rfl, View.mem_set_unit_zero zero_off inb_S2048x500_S2048x500_0_0 y⟩

set_option maxHeartbeats 1000000 in
/-- The body's triple: from the five whole buffers — the inputs at any contents `x0 … x3`, the output at anything — to
    the inputs unchanged and the output at `outBlock x0 x1 x2 x3`. -/
theorem sound_kernel (c : Dev nD) (E : Set ℕ) (i : grid0.Coords)
    (arg1 : Memref sig .tc .vmem S2048x512 .f32) (harg1 : arg1.IsWhole) (arg2 : Memref sig .tc .vmem S512x500 .bf16) (harg2 : arg2.IsWhole)
    (arg3 : Memref sig .tc .vmem S512x500 .bf16) (harg3 : arg3.IsWhole) (arg4 : Memref sig .tc .vmem S1x500 .f32) (harg4 : arg4.IsWhole)
    (arg5 : Memref sig .tc .vmem S2048x500 .f32) (harg5 : arg5.IsWhole)
    (x0 : Vec F S2048x512 .f32) (x1 : Vec F S512x500 .bf16) (x2 : Vec F S512x500 .bf16) (x3 : Vec F S1x500 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E
          (cc0__tanh_matmul_kernel i arg1 harg1 arg2 harg2 arg3 harg3 arg4 harg4 arg5 harg5) K := by
  simp only [cc0__tanh_matmul_kernel_eq_skeleton]; unfold cc0__tanh_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.IdealPayload.lean ====
/-
  The kernel's payload read at one entry, at the ideal instance: entry `(p, q)` of the output block is the three row
  products — `tanh x` against the first weight block, `tanh x` against the second, the residue `tanh x - tanh x` against the
  first again — summed, plus the bias row's entry `q`. Every sum runs over the 512 columns of row `p` of the
  activations' block and of no other row: that is why the rows of the block past the array's end never reach an entry
  that is written back.
-/
import proofs.«129046_j14594298872273_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- Where the product's operands are read: the left at the output's row and the contracted column, -/
theorem lhs_row (i : S2048x500.Idx) (c : dot_S2048x512_S512x500_S2048x500_1_0_0_1_n_n.contr.Idx) : (dot_S2048x512_S512x500_S2048x500_1_0_0_1_n_n.lhsIdx i c 0).val = (i 0).val := by
  unfold DotDims.lhsIdx
  rw [dif_neg (show ¬(0 : Fin S2048x512.rank) ∈ dot_S2048x512_S512x500_S2048x500_1_0_0_1_n_n.lhsBatch by decide), dif_pos (show (0 : Fin S2048x512.rank) ∈ dot_S2048x512_S512x500_S2048x500_1_0_0_1_n_n.lhsNonContracting by decide)]
  rfl
theorem lhs_col (i : S2048x500.Idx) (c : dot_S2048x512_S512x500_S2048x500_1_0_0_1_n_n.contr.Idx) : (dot_S2048x512_S512x500_S2048x500_1_0_0_1_n_n.lhsIdx i c 1).val = (c ⟨0, by decide⟩).val :=
  dot_S2048x512_S512x500_S2048x500_1_0_0_1_n_n.lhsIdx_val_of_single rfl i c
/-- the right at the contracted row and the output's column. -/
theorem rhs_row (i : S2048x500.Idx) (c : dot_S2048x512_S512x500_S2048x500_1_0_0_1_n_n.contr.Idx) : (dot_S2048x512_S512x500_S2048x500_1_0_0_1_n_n.rhsIdx i c 0).val = (c ⟨0, by decide⟩).val :=
  dot_S2048x512_S512x500_S2048x500_1_0_0_1_n_n.rhsIdx_val_of_single rfl i c
theorem rhs_col (i : S2048x500.Idx) (c : dot_S2048x512_S512x500_S2048x500_1_0_0_1_n_n.contr.Idx) : (dot_S2048x512_S512x500_S2048x500_1_0_0_1_n_n.rhsIdx i c 1).val = (i 1).val := by
  unfold DotDims.rhsIdx
  rw [dif_neg (show ¬(1 : Fin S512x500.rank) ∈ dot_S2048x512_S512x500_S2048x500_1_0_0_1_n_n.rhsBatch by decide), dif_pos (show (1 : Fin S512x500.rank) ∈ dot_S2048x512_S512x500_S2048x500_1_0_0_1_n_n.rhsNonContracting by decide)]
  rfl

/-- The body's matrix product into the zero block, at entry `(p, q)`: the sum over the 512 contracted columns. -/
theorem mm_apply (A : FVec Ideal S2048x512 .bf16) (B : FVec Ideal S512x500 .bf16) (p : Fin 2048) (q : Fin 500) :
    matmul dot_S2048x512_S512x500_S2048x500_1_0_0_1_n_n none A B (constant (F := Ideal) S2048x500 .f32 0x00000000#32) (ix2 p q)
      = ∑ k : Fin 512, A (ix2 p k) * B (ix2 k q) := by
  simp only [matmul]
  rw [Ideal.matmul_constant_zero_apply, ← Equiv.sum_comp (contrEquiv1 dot_S2048x512_S512x500_S2048x500_1_0_0_1_n_n 512 rfl rfl).symm]
  refine Finset.sum_congr rfl fun k _ => ?_
  have hk := contrEquiv1_symm_val dot_S2048x512_S512x500_S2048x500_1_0_0_1_n_n 512 rfl rfl k
  have el : dot_S2048x512_S512x500_S2048x500_1_0_0_1_n_n.lhsIdx (ix2 p q) ((contrEquiv1 dot_S2048x512_S512x500_S2048x500_1_0_0_1_n_n 512 rfl rfl).symm k) = ix2 p k :=
    funext fun a => Fin.ext (by
      match a with
      | ⟨0, _⟩ => exact lhs_row _ _
      | ⟨1, _⟩ => exact (lhs_col _ _).trans hk)
  have er : dot_S2048x512_S512x500_S2048x500_1_0_0_1_n_n.rhsIdx (ix2 p q) ((contrEquiv1 dot_S2048x512_S512x500_S2048x500_1_0_0_1_n_n 512 rfl rfl).symm k) = ix2 k q :=
    funext fun a => Fin.ext (by
      match a with
      | ⟨0, _⟩ => exact (rhs_row _ _).trans hk
      | ⟨1, _⟩ => exact rhs_col _ _)
  rw [el, er]

/-- The payload at entry `(p, q)`. -/
theorem pay_apply (x0 : Vec Ideal S2048x512 .f32) (w1 w2 : Vec Ideal S512x500 .bf16) (b : Vec Ideal S1x500 .f32)
    (p : Fin 2048) (q : Fin 500) :
    k0_pay1 (F := Ideal) x0 w1 w2 w1 b (ix2 p q)
      = ((∑ k : Fin 512, Ideal.tanh (x0 (ix2 p k)) * w1 (ix2 k q)) + (∑ k : Fin 512, Ideal.tanh (x0 (ix2 p k)) * w2 (ix2 k q)))
        + (∑ k : Fin 512, (Ideal.tanh (x0 (ix2 p k)) - Ideal.tanh (x0 (ix2 p k))) * w1 (ix2 k q)) + b (ix2 (0 : Fin 1) q) := by
  unfold k0_pay1
  simp only [shapeCast_self]
  rw [addf_apply, addf_apply, addf_apply, mm_apply, mm_apply, mm_apply, broadcastTo_1b_ab_apply]
  rfl

end Cert.KernelIdeal.Payload

end
-- ==== Proof.IdealHost.lean ====
/-
  What the region finds in the four arrays it stages as inputs, as functions of the argument arrays: the host operations
  before it leave, in the activations' array, the two gathers' sum — the same term the reference computes, operation for
  operation —; in the first weight array the transposed weights (a change of float format is the identity on the
  extended reals); in the second their residue, the transposed weights less themselves; in the bias row the bias.
-/
import proofs.«129046_j14594298872273_2_alg».proof.Proof.Gen.KernelIdeal.Frame
import proofs.«129046_j14594298872273_2_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The weights, the bias and the gathered activations, as arrays of extended reals over their literal shapes. -/
def weights (c : Dev nD) : (⟨2, ![500, 512]⟩ : Shape).Idx → EReal := m ((c : Thread nD τ).loc main_arg2)
def bias (c : Dev nD) : (⟨1, ![500]⟩ : Shape).Idx → EReal := m ((c : Thread nD τ).loc main_arg3)
def acts (c : Dev nD) : (⟨2, ![306874, 512]⟩ : Shape).Idx → EReal := V m c main_v28
def whi (c : Dev nD) : (⟨2, ![512, 500]⟩ : Shape).Idx → EReal := V m c main_v30
def wlo (c : Dev nD) : (⟨2, ![512, 500]⟩ : Shape).Idx → EReal := V m c main_v33
def brow (c : Dev nD) : (⟨2, ![1, 500]⟩ : Shape).Idx → EReal := V m c main_v34

/-- The first weight array at `(k, q)`: the weights at `(q, k)`. -/
theorem whi_apply (c : Dev nD) (k : Fin 512) (q : Fin 500) : whi m c (ix2 k q) = weights m c (ix2 q k) := by
  have e : whi m c
      = truncf (F := Ideal) .bf16 (transpose S512x500 [1, 0] (m ((c : Thread nD τ).loc main_arg2)) transposes_S500x512_S512x500_1_0) bitsLt_bf16_f32 := by
    unfold whi; dsimp only [Gen.V, Gen.hostOps0]; after_results <;> rfl
  rw [e, truncf_apply, transpose_ix2_apply]; rfl

/-- The second weight array at `(k, q)`: the weights at `(q, k)` less themselves. -/
theorem wlo_apply (c : Dev nD) (k : Fin 512) (q : Fin 500) :
    wlo m c (ix2 k q) = weights m c (ix2 q k) - weights m c (ix2 q k) := by
  have e : wlo m c
      = truncf (F := Ideal) .bf16 (subf (transpose S512x500 [1, 0] (m ((c : Thread nD τ).loc main_arg2)) transposes_S500x512_S512x500_1_0)
          (extf .f32 (truncf .bf16 (transpose S512x500 [1, 0] (m ((c : Thread nD τ).loc main_arg2)) transposes_S500x512_S512x500_1_0) bitsLt_bf16_f32)
            bitsLt_bf16_f32)) bitsLt_bf16_f32 := by
    unfold wlo; dsimp only [Gen.V, Gen.hostOps0]; after_results <;> rfl
  rw [e, truncf_apply, subf_apply, extf_apply, truncf_apply, transpose_ix2_apply]; rfl

/-- The bias row at `(0, q)`: the bias at `q`. -/
theorem brow_apply (c : Dev nD) (q : Fin 500) : brow m c (ix2 (0 : Fin 1) q) = bias m c (ix1 q) := by
  have e : brow m c = shapeCast S1x500 (m ((c : Thread nD τ).loc main_arg3)) shapeCasts_S500_S1x500 := by
    unfold brow; dsimp only [Gen.V, Gen.hostOps0]; after_results <;> rfl
  rw [e, shapeCast_a_1a_apply]; rfl

set_option maxHeartbeats 4000000 in
/-- The activations' array: the reference's own stage of that name, of the same arguments. -/
theorem acts_eq (c : Dev nD) :
    acts m c = Cert.ReferenceIdeal.Read.val_main_v28 (F := Ideal) (m ((c : Thread nD τ).loc main_arg0)) (m ((c : Thread nD τ).loc main_arg1))
          (m ((c : Thread nD τ).loc main_arg4)) (m ((c : Thread nD τ).loc main_arg5)) (m ((c : Thread nD τ).loc main_arg6)) := by
  unfold acts; dsimp only [Gen.V, Gen.hostOps0]; after_results <;> rfl

end Cert.KernelIdeal.Host

end
-- ==== Proof.Spec.lean ====
/-
  The specification both programs meet, and the two laws of the extended reals that join them.

  `logits x W b` is the function of the gathered activations `x` (306874 rows of 512), the projection's weights `W`
  (500 rows of 512) and its bias `b`: entry `(r, q)` is `∑ k, tanh x[r, k] · W[q, k] + b[q]`, over the extended reals.

  The kernel computes each row product in three passes, of `tanh x` against `W`, of `tanh x` against the residue
  `W - W`, and of the residue `tanh x - tanh x` against `W`. A hyperbolic tangent is a real number whatever its argument, and
  the weights are finite under the precondition, so both residues are zero, their passes sum zeros, and the three passes
  are the first alone (`three_pass`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The projection of the activations' hyperbolic tangent: entry `(r, q)` is `∑ k, tanh x[r, k] · W[q, k] + b[q]`. -/
def logits (x : (⟨2, ![306874, 512]⟩ : Shape).Idx → EReal) (W : (⟨2, ![500, 512]⟩ : Shape).Idx → EReal)
    (b : (⟨1, ![500]⟩ : Shape).Idx → EReal) : (⟨2, ![306874, 500]⟩ : Shape).Idx → EReal :=
  fun i => (∑ k : Fin 512, Ideal.tanh (x (ix2 (i 0) k)) * W (ix2 (i 1) k)) + b (ix1 (i 1))

/-- A hyperbolic tangent is a real number at every extended real (at the infinities it is `±1`). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- A real number less itself is zero, in the extended reals too. -/
theorem coe_sub_self (r : ℝ) : ((r : EReal) - (r : EReal)) = 0 := by
  rw [← EReal.coe_sub, sub_self, EReal.coe_zero]

theorem tanh_sub_self (x : EReal) : Ideal.tanh x - Ideal.tanh x = 0 := by
  obtain ⟨r, hr⟩ := tanh_real x
  rw [hr]; exact coe_sub_self r

/-- An extended real that is neither infinity, less itself, is zero. -/
theorem sub_self_of_finite {w : EReal} (ht : w ≠ ⊤) (hb : w ≠ ⊥) : w - w = 0 := by
  induction w using EReal.rec with
  | bot => exact absurd rfl hb
  | top => exact absurd rfl ht
  | coe r => exact coe_sub_self r

/-- The three passes are the first: with the weights' residue `w k - w k` and the activations' residue `a k - a k`
    both zero, the second and third sums are sums of zeros. -/
theorem three_pass (a w : Fin 512 → EReal) (hw : ∀ k, w k - w k = 0) (ha : ∀ k, a k - a k = 0) (β : EReal) :
    ((∑ k, a k * w k) + (∑ k, a k * (w k - w k))) + (∑ k, (a k - a k) * w k) + β = (∑ k, a k * w k) + β := by
  have h2 : (∑ k, a k * (w k - w k)) = 0 := Finset.sum_eq_zero fun k _ => by rw [hw k, mul_zero]
  have h3 : (∑ k, (a k - a k) * w k) = 0 := Finset.sum_eq_zero fun k _ => by rw [ha k, zero_mul]
  rw [h2, h3, add_zero, add_zero]

end Cert.Spec

end
-- ==== Proof.IdealRun.lean ====
/-
  The idealized kernel's run and the value it leaves: under the hypothesis that every weight is a finite number (so that
  a weight less itself is zero), every weakly fair execution of @main terminates, faults nowhere, leaves the argument
  arrays unchanged, and leaves the result array at `logits` of the gathered activations, the weights and the bias.

  Point `t` of the 150 stages rows `2048·t …` of the activations and of the result; the last block overhangs the
  arrays by 326 rows, which the fetch leaves at contents nothing names and the write-back does not write. The proof data
  name, for the two overhanging windows, a buffer that is the block on the rows inside the array and zero below; the
  body obligation owes them on the rows inside the array only, and there the body's payload at entry `(p, q)` reads row
  `p` of the activations' buffer alone, a row inside the array.
-/
import proofs.«129046_j14594298872273_2_alg».proof.Proof.IdealBody
import proofs.«129046_j14594298872273_2_alg».proof.Proof.IdealPayload
import proofs.«129046_j14594298872273_2_alg».proof.Proof.IdealHost
import proofs.«129046_j14594298872273_2_alg».proof.Proof.Spec
import proofs.«129046_j14594298872273_2_alg».proof.Proof.Gen.KernelIdeal.Launch
import proofs.«129046_j14594298872273_2_alg».proof.Proof.Gen.KernelIdeal.Points
import proofs.«129046_j14594298872273_2_alg».proof.Proof.Gen.KernelIdeal.Frame
import Idealize.ShloMosaic.Lib.Pipeline.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result's closed form and the proof data -/

/-- What the result array ends holding: `logits` of the activations as the region finds them, the weights, the bias. -/
def result (c : Dev nD) : Buf (Elt Ideal) ((cfg0.win 4).arr.view.loc (c.tc : Thread nD τ)) :=
  Cert.Spec.logits (Host.acts m c) (Host.weights m c) (Host.bias m c)

/-- The contents the proof data give the two overhanging buffers below the array's end: zero (nothing reads them). -/
def pad0 : win0_0.block.Idx → Elt Ideal win0_0.elt := fun _ => (0 : EReal)
def pad4 : win0_4.block.Idx → Elt Ideal win0_4.elt := fun _ => (0 : EReal)

/-- The proof data: the arrays as the region finds them; after the body at point `t` the activations' buffer at its
    block on the rows inside the array (zero below), the two weight buffers and the bias buffer at their blocks, the
    result's buffer at block `t` of `result` on the rows inside the array (zero below). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) pad0 (iblk m c 0 t)
    | ⟨1, _⟩ => iblk m c 1 t
    | ⟨2, _⟩ => iblk m c 2 t
    | ⟨3, _⟩ => iblk m c 3 t
    | ⟨4, _⟩ => win0_4.fill (grid0.coords t) pad4 ((win0_4.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) pad0 (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t
      = win0_4.fill (grid0.coords t) pad4 ((win0_4.blk t).view.read (Elt Ideal) (result m c)) := by
  dsimp only [dats]

/-- What the body finds: the activations' buffer just fetched — its block on the rows inside the array, `d` below —, -/
theorem before0_0 (c : Dev nD) (t : Fin cfg0.N) (d) :
    (dats m 0 c).before 0 t d = win0_0.fill (grid0.coords t) d (iblk m c 0 t) := by
  unfold Dat.before; rw [if_pos (fetch0_0 t)]; rfl
/-- the weight and bias buffers at their blocks, fetched at this point or at the first, -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- the result's buffer at contents nothing names (every point writes it back). -/
theorem before0_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-- The output buffer after the body is the payload of the input buffers: the one store is of the whole buffer. -/
theorem outBlock_eq {F : FTy → Type} [FloatOps F] (x0 : Vec F S2048x512 .f32) (x1 x2 : Vec F S512x500 .bf16) (x3 : Vec F S1x500 .f32) :
    outBlock x0 x1 x2 x3 = k0_pay1 x0 x1 x2 x1 x3 := by
  unfold outBlock
  rw [View.canon_unit_zero zero_off]
  simp only [View.ld_unit_zero (S := S2048x512) zero_off, View.ld_unit_zero (S := S512x500) zero_off,
    View.ld_unit_zero (S := S1x500) zero_off]

/-- The printed index maps and cuts, decided over the grid: the activations' and the result's windows move together
    down the rows and are cut alike; the other windows stay at block zero; no window is cut across the columns. -/
theorem grid_facts : ∀ t : Fin cfg0.N,
    win0_0.index t (0 : Fin 2) = win0_4.index t (0 : Fin 2) ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_0.xsize (grid0.coords t) (0 : Fin 2) = win0_4.xsize (grid0.coords t) (0 : Fin 2)
    ∧ win0_0.xsize (grid0.coords t) (1 : Fin 2) = 512 ∧ win0_4.xsize (grid0.coords t) (1 : Fin 2) = 500 :=
  (by decide +kernel : ∀ t : Fin grid0.N, _)

/-! ## A block read at an entry, over any contents of the array -/

/-- Window `w`'s block at point `t`, read at an entry, is the array at the index whose coordinates are the block's
    index times its size plus the entry's: stated for any contents `A` of the array, per input window. -/
theorem read_acts (A : S306874x512.Idx → EReal) (t : Fin cfg0.N) (j : (win0_0.xblock (grid0.coords t)).Idx)
    (r : Fin 306874) (k : Fin 512) (hr : win0_0.index t (0 : Fin 2) * 2048 + 1 * (j 0).val = r.val)
    (hk : win0_0.index t (1 : Fin 2) * 512 + 1 * (j 1).val = k.val) :
    (win0_0.blk t).view.read (Elt Ideal) A j = A (ix2 r k) := by
  show A ((win0_0.blk t).view.emb j) = A (ix2 r k)
  refine congrArg A (funext fun a => Fin.ext ?_)
  match a with
  | ⟨0, _⟩ => exact hr
  | ⟨1, _⟩ => exact hk

theorem read_whi (A : S512x500.Idx → EReal) (t : Fin cfg0.N) (j : (win0_1.xblock (grid0.coords t)).Idx)
    (k : Fin 512) (q : Fin 500) (hk : win0_1.index t (0 : Fin 2) * 512 + 1 * (j 0).val = k.val)
    (hq : win0_1.index t (1 : Fin 2) * 500 + 1 * (j 1).val = q.val) :
    (win0_1.blk t).view.read (Elt Ideal) A j = A (ix2 k q) := by
  show A ((win0_1.blk t).view.emb j) = A (ix2 k q)
  refine congrArg A (funext fun a => Fin.ext ?_)
  match a with
  | ⟨0, _⟩ => exact hk
  | ⟨1, _⟩ => exact hq

theorem read_wlo (A : S512x500.Idx → EReal) (t : Fin cfg0.N) (j : (win0_2.xblock (grid0.coords t)).Idx)
    (k : Fin 512) (q : Fin 500) (hk : win0_2.index t (0 : Fin 2) * 512 + 1 * (j 0).val = k.val)
    (hq : win0_2.index t (1 : Fin 2) * 500 + 1 * (j 1).val = q.val) :
    (win0_2.blk t).view.read (Elt Ideal) A j = A (ix2 k q) := by
  show A ((win0_2.blk t).view.emb j) = A (ix2 k q)
  refine congrArg A (funext fun a => Fin.ext ?_)
  match a with
  | ⟨0, _⟩ => exact hk
  | ⟨1, _⟩ => exact hq

theorem read_brow (A : S1x500.Idx → EReal) (t : Fin cfg0.N) (j : (win0_3.xblock (grid0.coords t)).Idx)
    (u : Fin 1) (q : Fin 500) (hu : win0_3.index t (0 : Fin 2) * 1 + 1 * (j 0).val = u.val)
    (hq : win0_3.index t (1 : Fin 2) * 500 + 1 * (j 1).val = q.val) :
    (win0_3.blk t).view.read (Elt Ideal) A j = A (ix2 u q) := by
  show A ((win0_3.blk t).view.emb j) = A (ix2 u q)
  refine congrArg A (funext fun a => Fin.ext ?_)
  match a with
  | ⟨0, _⟩ => exact hu
  | ⟨1, _⟩ => exact hq

/-! ## What the body leaves on the rows inside the array -/

set_option maxHeartbeats 800000 in
/-- On the rows inside the array, the output buffer after the body at point `t` is block `t` of `result`, whatever
    the activations' buffer holds below the array's end: entry `(p, q)` of the payload reads row `p` of the activations'
    buffer — row `2048·t + p` of the array —, column `q` of the two weight buffers — the transposed weights and their
    residue, which is zero — and entry `q` of the bias row; the three passes are the first (`Spec.three_pass`). -/
theorem block_eq (hW : ∀ c i, Host.weights m c i - Host.weights m c i = 0) (c : Dev nD) (t : Fin cfg0.N)
    (d0 : win0_0.block.Idx → Elt Ideal win0_0.elt) :
    win0_4.cut (grid0.coords t) (outBlock (win0_0.fill (grid0.coords t) d0 (iblk m c 0 t)) (iblk m c 1 t) (iblk m c 2 t) (iblk m c 3 t))
      = (win0_4.blk t).view.read (Elt Ideal) (result m c) := by
  obtain ⟨e04, e01, e41, e10, e11, e20, e21, e30, e31, x04, x01, x41⟩ := grid_facts t
  funext y
  rw [outBlock_eq]
  have hy0 : (y 0).val < win0_4.xsize (grid0.coords t) (0 : Fin 2) := (y 0).isLt
  have hy1 : (y 1).val < win0_4.xsize (grid0.coords t) (1 : Fin 2) := (y 1).isLt
  have hp : (y 0).val < 2048 := lt_of_lt_of_le hy0 (win0_4.xsize_le _ 0)
  have hq : (y 1).val < 500 := by omega
  have h0 : (y 0).val < win0_0.xsize (grid0.coords t) (0 : Fin 2) := by omega
  have h1 : ∀ k : Fin 512, k.val < win0_0.xsize (grid0.coords t) (1 : Fin 2) := fun k => by have := k.isLt; omega
  have hxy : win0_4.xinj (grid0.coords t) y = ix2 (⟨(y 0).val, hp⟩ : Fin 2048) (⟨(y 1).val, hq⟩ : Fin 500) :=
    funext fun a => Fin.ext (by match a with | ⟨0, _⟩ => rfl | ⟨1, _⟩ => rfl)
  show k0_pay1 (F := Ideal) (win0_0.fill (grid0.coords t) d0 (iblk m c 0 t)) (iblk m c 1 t) (iblk m c 2 t) (iblk m c 1 t) (iblk m c 3 t)
      (win0_4.xinj (grid0.coords t) y) = result m c ((win0_4.blk t).view.emb y)
  rw [hxy, Payload.pay_apply]
  -- the array's row `r` and column `q'` under `y`
  obtain ⟨r, q', hi⟩ : ∃ (r : Fin 306874) (q' : Fin 500), (win0_4.blk t).view.emb y = ix2 r q' := ⟨_, _, eq_ix2 _⟩
  have hr : r.val = win0_4.index t (0 : Fin 2) * 2048 + 1 * (y 0).val :=
    (congrArg (fun f : S306874x500.Idx => (f (0 : Fin 2)).val) hi).symm
  have hc : q'.val = win0_4.index t (1 : Fin 2) * 500 + 1 * (y 1).val :=
    (congrArg (fun f : S306874x500.Idx => (f (1 : Fin 2)).val) hi).symm
  rw [hi]
  show _ = (∑ k : Fin 512, Ideal.tanh (Host.acts m c (ix2 r k)) * Host.weights m c (ix2 q' k)) + Host.bias m c (ix1 q')
  -- the activations' buffer at `(p, k)`: the array at row `r`
  have hX0 : ∀ k : Fin 512, win0_0.fill (grid0.coords t) d0 (iblk m c 0 t) (ix2 (⟨(y 0).val, hp⟩ : Fin 2048) k)
      = Host.acts m c (ix2 r k) := fun k => by
    have hj : ix2 (⟨(y 0).val, hp⟩ : Fin 2048) k
        = win0_0.xinj (grid0.coords t) (fun a => match a with | ⟨0, _⟩ => ⟨(y 0).val, h0⟩ | ⟨1, _⟩ => ⟨k.val, h1 k⟩) :=
      funext fun a => Fin.ext (by match a with | ⟨0, _⟩ => rfl | ⟨1, _⟩ => rfl)
    rw [hj, Window.fill_xinj]
    exact read_acts (Host.acts m c) t _ r k (by show win0_0.index t (0 : Fin 2) * 2048 + 1 * (y 0).val = r.val; rw [hr, e04])
      (by show win0_0.index t (1 : Fin 2) * 512 + 1 * k.val = k.val; rw [e01]; omega)
  -- the weight buffers at `(k, q)` and the bias row at `(0, q)`
  have hX1 : ∀ k : Fin 512, iblk m c 1 t (ix2 k (⟨(y 1).val, hq⟩ : Fin 500)) = Host.weights m c (ix2 q' k) := fun k =>
    (read_whi (Host.whi m c) t _ k q' (by show win0_1.index t (0 : Fin 2) * 512 + 1 * k.val = k.val; rw [e10]; omega)
      (by show win0_1.index t (1 : Fin 2) * 500 + 1 * (y 1).val = q'.val; rw [hc, e11, e41])).trans (Host.whi_apply m c k q')
  have hX2 : ∀ k : Fin 512, iblk m c 2 t (ix2 k (⟨(y 1).val, hq⟩ : Fin 500))
      = Host.weights m c (ix2 q' k) - Host.weights m c (ix2 q' k) := fun k =>
    (read_wlo (Host.wlo m c) t _ k q' (by show win0_2.index t (0 : Fin 2) * 512 + 1 * k.val = k.val; rw [e20]; omega)
      (by show win0_2.index t (1 : Fin 2) * 500 + 1 * (y 1).val = q'.val; rw [hc, e21, e41])).trans (Host.wlo_apply m c k q')
  have hX3 : iblk m c 3 t (ix2 (0 : Fin 1) (⟨(y 1).val, hq⟩ : Fin 500)) = Host.bias m c (ix1 q') :=
    (read_brow (Host.brow m c) t _ (0 : Fin 1) q' (by show win0_3.index t (0 : Fin 2) * 1 + 1 * 0 = 0; rw [e30])
      (by show win0_3.index t (1 : Fin 2) * 500 + 1 * (y 1).val = q'.val; rw [hc, e31, e41])).trans (Host.brow_apply m c q')
  simp only [hX0, hX1, hX2, hX3]
  exact Cert.Spec.three_pass (fun k => Ideal.tanh (Host.acts m c (ix2 r k))) (fun k => Host.weights m c (ix2 q' k))
    (fun k => hW c _) (fun k => Cert.Spec.tanh_sub_self _) _

/-! ## The body obligation -/

/-- The body at point `t`: it finds the activations' buffer at its block on the rows inside the array and anything
    below, the weight and bias buffers at their blocks, the result's buffer at anything; it leaves the inputs as found and
    the result's buffer at the payload, which on the rows inside the array is block `t` of `result` (`block_eq`) — all the
    obligation asks of the two overhanging windows. -/
theorem sound_body (hW : ∀ c i, Host.weights m c i - Host.weights m c i = 0) (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare
                (win0_0.fill (grid0.coords t) d (win0_0.cut (grid0.coords t) ((dats m 0 c).after 0 t))))
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ (∃ d, owns (c : Thread nD τ) (st0_4 t) fullShare
                (win0_4.fill (grid0.coords t) d (win0_4.cut (grid0.coords t) ((dats m 0 c).after 4 t)))))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  have hc0 : win0_0.fill (grid0.coords t) d0 (win0_0.cut (grid0.coords t) ((dats m 0 c).after 0 t))
      = win0_0.fill (grid0.coords t) d0 (iblk m c 0 t) := by
    rw [after0_0, Window.cut_fill]
  have hc4 : win0_4.fill (grid0.coords t)
        (outBlock (win0_0.fill (grid0.coords t) d0 (iblk m c 0 t)) (iblk m c 1 t) (iblk m c 2 t) (iblk m c 3 t))
        (win0_4.cut (grid0.coords t) ((dats m 0 c).after 4 t))
      = outBlock (win0_0.fill (grid0.coords t) d0 (iblk m c 0 t)) (iblk m c 1 t) (iblk m c 2 t) (iblk m c 3 t) := by
    rw [after0_4, Window.cut_fill, ← block_eq m hW c t d0, Window.fill_cut]
  iapply (sound_kernel (F := Ideal) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0; rw [hc0]; iexact H0
  isplitl [H1]; · rw [after0_1]; iexact H1
  isplitl [H2]; · rw [after0_2]; iexact H2
  isplitl [H3]; · rw [after0_3]; iexact H3
  · iexists (outBlock (win0_0.fill (grid0.coords t) d0 (iblk m c 0 t)) (iblk m c 1 t) (iblk m c 2 t) (iblk m c 3 t))
    rw [hc4]; iexact H4

/-- The library's body obligation, the two overhanging windows owed on the rows inside the array. -/
theorem body_obligation (hW : ∀ c i, Host.weights m c i - Host.weights m c i = 0) (c : Dev nD) :
    BodyObligationLoose (dats m 0 c) (defs₀ (F := Ideal)) Variants.none () Set.univ := fun t => by
  rw [bigSep_W0, bigSep_W0]
  exact sound_body m hW c t

/-! ## The run -/

set_option backward.isDefEq.respectTransparency.types false in
/-- Every weakly fair execution of @main terminates, faulting nowhere; every array of the pipeline ends at what the
    library computes from the proof data, every other unscoped buffer as the region found it. -/
theorem run_main (hW : ∀ c i, Host.weights m c i - Host.weights m c i = 0) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m hW c) (hshare := fun c => (dats m 0 c).share_full fun _ => rfl)
    (howed := fun _ _ => rfl) (V := V m) (hmain := hmain m Variants.none) (hA := A_eq m) (hΦ := fun _ _ => rfl)

/-! ## The result array after the run -/

/-- An index of the result array is in point `t`'s block iff, on each axis, it is within the block's part inside the array. -/
theorem mem_blk (t : Fin cfg0.N) (i : S306874x500.Idx) :
    i ∈ ((cfg0.win 4).blk t).view.set ↔ ∀ a : Fin 2, win0_4.index t a * S2048x500.size a ≤ (i a).val
      ∧ (i a).val < win0_4.index t a * S2048x500.size a + win0_4.xsize (grid0.coords t) a := by
  show i ∈ ((View.whole main_v35).slice (win0_4.rect t)).set ↔ _
  rw [View.set_slice_whole, Rect.mem_set_unit]
  exact Iff.rfl

/-- The result's window over the grid: point `t` is at block row `t`, spans the 500 columns, and spans 2048 rows or
    ends with the array. -/
theorem cover_facts : ∀ t : Fin cfg0.N, win0_4.index t (0 : Fin 2) = t.val ∧ win0_4.index t (1 : Fin 2) = 0
    ∧ win0_4.xsize (grid0.coords t) (1 : Fin 2) = 500
    ∧ (win0_4.xsize (grid0.coords t) (0 : Fin 2) = 2048 ∨ t.val * 2048 + win0_4.xsize (grid0.coords t) (0 : Fin 2) = 306874) :=
  (by decide +kernel : ∀ t : Fin grid0.N, _)

/-- Every index of the result array is in the block of the point its row falls in, which writes its block back. -/
theorem cover (i : S306874x500.Idx) : ∃ t : Fin cfg0.N, (cfg0.win 4).flush t = true ∧ i ∈ ((cfg0.win 4).blk t).view.set := by
  have hi0 : (i 0).val < 306874 := (i 0).isLt
  have hi1 : (i 1).val < 500 := (i 1).isLt
  have hN : grid0.N = 150 := N_0
  have ht : (i 0).val / 2048 < cfg0.N := by show (i 0).val / 2048 < grid0.N; omega
  refine ⟨⟨(i 0).val / 2048, ht⟩, flush0_4 _, ?_⟩
  rw [mem_blk]
  obtain ⟨f0, f1, f2, f3⟩ := cover_facts ⟨(i 0).val / 2048, ht⟩
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + win0_4.xsize (grid0.coords ⟨(i 0).val / 2048, ht⟩) (0 : Fin 2)
    rw [f0]
    have f3' : win0_4.xsize (grid0.coords ⟨(i 0).val / 2048, ht⟩) (0 : Fin 2) = 2048
        ∨ (i 0).val / 2048 * 2048 + win0_4.xsize (grid0.coords ⟨(i 0).val / 2048, ht⟩) (0 : Fin 2) = 306874 := f3
    show (i 0).val / 2048 * 2048 ≤ (i 0).val ∧ (i 0).val < (i 0).val / 2048 * 2048 + _
    rcases f3' with f3' | f3' <;> omega
  | ⟨1, _⟩ =>
    show win0_4.index ⟨(i 0).val / 2048, ht⟩ (1 : Fin 2) * 500 ≤ (i 1).val
      ∧ (i 1).val < win0_4.index ⟨(i 0).val / 2048, ht⟩ (1 : Fin 2) * 500 + win0_4.xsize (grid0.coords ⟨(i 0).val / 2048, ht⟩) (1 : Fin 2)
    rw [f1, f2]; omega

/-- The result array after the run is `result`: every point writes back block `t` of it, and the blocks cover the array. -/
theorem final (c : Dev nD) : (dats m 0 c).arrAt 4 cfg0.N = result m c :=
  (dats m 0 c).arrAt_eq_of_cover 4 (result m c) (fun t _ => by
    show win0_4.cut (grid0.coords t) ((dats m 0 c).after 4 t) = _
    rw [after0_4, Window.cut_fill]) cover

/-- The run, read: the result array at `result`, the seven argument arrays unchanged. -/
theorem run (hW : ∀ c i, Host.weights m c i - Host.weights m c i = 0) :
    θ_run defs (onTc (τ := τ) (main (F := Ideal))) ⟨m, fun _ => 0, ρ⟩ fun r => ∀ c : Dev nD,
      r.2.mem ((c : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ hW)

end Cert.KernelIdeal.Body

end
-- ==== Proof.IdealFinite.lean ====
/-
  The precondition, read back at the weights: `finite_inputs` ends in a conjunction of four `all`s, the third of which
  says that every weight's absolute value is below `+∞`; an extended real whose absolute value is below `+∞` is neither
  infinity.
-/
import proofs.«129046_j14594298872273_2_alg».proof.Defs
import proofs.«129046_j14594298872273_2_alg».proof.Proof.Spec
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- The pattern `0x7F800000` denotes `+∞`. -/
theorem top_pattern : Ideal.ofBits .f32 0x7F800000#32 = ⊤ := by
  simp [Ideal.ofBits, Ideal.ieee]

/-- An extended real whose absolute value is below `+∞` is neither infinity. -/
theorem finite_of_abs_lt_top (x : EReal) (h : Ideal.cmp .olt (max x (-x)) ⊤ = 1#1) : x ≠ ⊤ ∧ x ≠ ⊥ := by
  induction x using EReal.rec with
  | bot => exfalso; simp [Ideal.cmp] at h
  | top => exfalso; simp [Ideal.cmp] at h
  | coe r => exact ⟨EReal.coe_ne_top r, EReal.coe_ne_bot r⟩

/-- Under `finite_inputs` every weight is finite. -/
theorem weights_finite [Cert.Pre_finite_inputs.Facts]
    (x0 : FVec Ideal Cert.Pre_finite_inputs.S16x512x512 .f32) (x1 : FVec Ideal Cert.Pre_finite_inputs.S16x64x512 .f32)
    (x2 : FVec Ideal Cert.Pre_finite_inputs.S500x512 .f32) (x3 : FVec Ideal Cert.Pre_finite_inputs.S500 .f32)
    (x4 x5 x6 : IVec Cert.Pre_finite_inputs.S306874 32)
    (h : Cert.Pre_finite_inputs.fn (F := Ideal) x0 x1 x2 x3 x4 x5 x6 = fun _ => 1#1) (i : Cert.Pre_finite_inputs.S500x512.Idx) :
    x2 i ≠ ⊤ ∧ x2 i ≠ ⊥ := by
  have h0 := congrFun h ix0
  dsimp only [Cert.Pre_finite_inputs.fn, Cert.Pre_finite_inputs.fn_part1] at h0
  obtain ⟨h012, -⟩ := IntOp.andi_eq_one.1 h0
  obtain ⟨-, h2⟩ := IntOp.andi_eq_one.1 h012
  have h2i := Host.reduce_andi_all _ _ _ _ _ h2 i
  refine finite_of_abs_lt_top (x2 i) ?_
  rw [← top_pattern]
  exact h2i

end Cert.Finite

end
-- ==== Proof.RefSide.lean ====
/-
  The reference at the ideal instance is the specification: its last stage, read one operation at a time, is at entry
  `(r, q)` the sum over `k` of `tanh` of the gathered activations at `(r, k)` times the weights at `(q, k)` — the host's
  product reads its transposed operand at `(k, q)`, which is the weights at `(q, k)` — plus the bias at `q`, broadcast
  over the rows.
-/
import proofs.«129046_j14594298872273_2_alg».proof.Proof.Gen.ReferenceIdeal.Run
import proofs.«129046_j14594298872273_2_alg».proof.Proof.Gen.ReferenceIdeal.Read
import proofs.«129046_j14594298872273_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result stage is `logits` of its gathered activations, the weights and the bias. -/
theorem result_eq (x0 : (⟨S16x512x512, .f32⟩ : BufTy).Contents (Elt Ideal)) (x1 : (⟨S16x64x512, .f32⟩ : BufTy).Contents (Elt Ideal))
    (x2 : (⟨S500x512, .f32⟩ : BufTy).Contents (Elt Ideal)) (x3 : (⟨S500, .f32⟩ : BufTy).Contents (Elt Ideal))
    (x4 x5 x6 : (⟨S306874, .i32⟩ : BufTy).Contents (Elt Ideal)) :
    val_main_v34 (F := Ideal) x0 x1 x2 x3 x4 x5 x6 = Cert.Spec.logits (val_main_v28 (F := Ideal) x0 x1 x4 x5 x6) x2 x3 := by
  funext i
  have h1 : ∀ k, lidx_main_v31 i k = ix2 (i 0) k := fun k =>
    funext fun a => Fin.ext (by match a with | ⟨0, _⟩ => rfl | ⟨1, _⟩ => rfl)
  have h2 : ∀ k, idx_main_v30 (ridx_main_v31 i k) = ix2 (i 1) k := fun k =>
    funext fun a => Fin.ext (by match a with | ⟨0, _⟩ => rfl | ⟨1, _⟩ => rfl)
  have h3 : idx_main_v32 (idx_main_v33 i) = ix1 (i 1) :=
    funext fun a => Fin.ext (by match a with | ⟨0, _⟩ => rfl)
  rw [val_main_v34_apply, val_main_v31_apply, val_main_v33_apply, val_main_v32_apply, h3]
  simp only [val_main_v29_apply, val_main_v30_apply, h1, h2]
  rfl

end Cert.ReferenceIdeal.RefValue

end
-- ==== Proof.lean ====
/-
  The kernel gathers 306874 rows of activations on the host, and in one Pallas call over 150 row blocks computes
  `tanh x · Wᵀ + b` by three bf16 passes: `hi(tanh x) · hi(Wᵀ) + hi(tanh x) · lo(Wᵀ) + lo(tanh x) · hi(Wᵀ)`, where `hi`
  rounds to bf16 and `lo` is the rounded residue. The reference computes `tanh x · Wᵀ + b` with one host product.

  On the extended reals a change of float format is the identity, so `hi` is the identity and `lo v = v - v`. A
  hyperbolic tangent is a real number, and under the precondition every weight is finite, so both residues are zero, the
  second and third passes are sums of zeros, and the two programs end with the same array, entry by entry (`algebraic`).
  The one rewrite of the ideal pass is a widening of a narrowing (`preserves`). The three frames: the word-level kernel's
  from a run that names nothing the body leaves in a staging buffer; the idealized kernel's from the run that computes
  its result; the reference's from its run.
-/
import proofs.«129046_j14594298872273_2_alg».proof.Defs
import proofs.«129046_j14594298872273_2_alg».proof.Proof.Gen.Kernel
import proofs.«129046_j14594298872273_2_alg».proof.Proof.Gen.KernelIdeal
import proofs.«129046_j14594298872273_2_alg».proof.Proof.Gen.ReferenceIdeal
import proofs.«129046_j14594298872273_2_alg».proof.Proof.Gen.Pre_finite_inputs
import proofs.«129046_j14594298872273_2_alg».proof.Proof.Gen.ReferenceIdeal.Run
import proofs.«129046_j14594298872273_2_alg».proof.Proof.Gen.ReferenceIdeal.Read
import proofs.«129046_j14594298872273_2_alg».proof.Proof.BitsFrame
import proofs.«129046_j14594298872273_2_alg».proof.Proof.IdealRun
import proofs.«129046_j14594298872273_2_alg».proof.Proof.IdealFinite
import proofs.«129046_j14594298872273_2_alg».proof.Proof.RefSide
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- Under the precondition every weight less itself is zero: every weight is finite. -/
theorem weights_sub_self (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![500, 512]⟩ : Shape).Idx) :
    Cert.KernelIdeal.Host.weights m c i - Cert.KernelIdeal.Host.weights m c i = 0 :=
  have hf := Cert.Finite.weights_finite _ _ _ _ _ _ _ (h c) i
  Cert.Spec.sub_self_of_finite hf.1 hf.2

theorem frame_k : Cert.frame_Kernel := fun m ρ _ => Cert.Kernel.Body.frame m ρ

theorem frame_ki : Cert.frame_KernelIdeal := fun m ρ h =>
  (θ_run Cert.KernelIdeal.defs _ _).mono (fun _ hr c => (hr c).2) (Cert.KernelIdeal.Body.run m ρ (weights_sub_self m h))

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: a widening of a narrowing of the block of hyperbolic tangents, the identity at `Ideal`. -/
theorem preserves : Cert.preserves_Kernel_KernelIdeal :=
  IdealRules.truncf_extf.statement Cert.KernelIdeal.S2048x512 .f32 .bf16

/-- Both programs end with `logits` of the gathered activations, the weights and the bias: the kernel by its run
    (`Body.run`), the reference by its generated run read one operation at a time (`RefValue.result_eq`); the gathered
    activations are one term of arguments that agree. -/
theorem algebraic : Cert.algebraic_KernelIdeal_ReferenceIdeal := by
  intro m ρ m' ρ' hpre hagree
  refine ⟨fun c => Cert.KernelIdeal.Body.result m c, Cert.KernelIdeal.Body.run m ρ (weights_sub_self m hpre), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v34_eq, Cert.ReferenceIdeal.RefValue.result_eq, a0, a1, a2, a3, a4, a5, a6]
  show Cert.Spec.logits _ _ _
    = Cert.Spec.logits (Cert.KernelIdeal.Host.acts m c) (Cert.KernelIdeal.Host.weights m c) (Cert.KernelIdeal.Host.bias m c)
  rw [Cert.KernelIdeal.Host.acts_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
